-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S256x64 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S1300000x64 : Shape := ⟨2, ![1300000, 64]⟩
abbrev S1x64 : Shape := ⟨2, ![1, 64]⟩
abbrev S64x256 : Shape := ⟨2, ![64, 256]⟩
abbrev S1x1 : Shape := ⟨2, ![1, 1]⟩
abbrev S4000x64 : Shape := ⟨2, ![4000, 64]⟩
abbrev S4000x1 : Shape := ⟨2, ![4000, 1]⟩
abbrev S4000x256 : Shape := ⟨2, ![4000, 256]⟩
abbrev S4000 : Shape := ⟨1, ![4000]⟩

abbrev nBuf : Space → Nat
  | .hbm => 52
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S64x64, .f32⟩
  | .hbm, ⟨18, _⟩ => ⟨S100000x64, .f32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000x64, .f32⟩
  | .hbm, ⟨38, _⟩ => ⟨S_, .f32⟩
  | .hbm, ⟨39, _⟩ => ⟨S100000x64, .f32⟩
  | .hbm, ⟨40, _⟩ => ⟨S1300000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S64x256, .f32⟩
  | .hbm, ⟨47, _⟩ => ⟨S1x256, .f32⟩
  | .hbm, ⟨48, _⟩ => ⟨S256x256, .f32⟩
  | .hbm, ⟨49, _⟩ => ⟨S1x256, .f32⟩
  | .hbm, ⟨50, _⟩ => ⟨S1x1, .f32⟩
  | .hbm, ⟨51, _⟩ => ⟨S100000x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S1x64, .f32⟩
  | .local _ .vmem, ⟨5, _⟩ => ⟨S64x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S4000x1, .f32⟩
  | .local _ .vmem, ⟨12, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  transposes_S64x64_S64x64_1_0 : S64x64.Transposes [1, 0] S64x64
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  transposes_S256x64_S64x256_1_0 : S256x64.Transposes [1, 0] S64x256
  shapeCasts_S256_S1x256 : S256.ShapeCasts S1x256
  transposes_S256x256_S256x256_1_0 : S256x256.Transposes [1, 0] S256x256
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4000x256_S4000 : S4000x256.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S100000x1.size a
  hwx0_9 : ∀ i : grid0.Coords, EltTy.bits .f32 = 32 ∨ (Rect.block (s := S100000x1) S4000x1.size (cc0_transform_9 i) (hinb0_9 i)).WholeWords (EltTy.packing .f32)

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v29) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S64x256 : Shape := ⟨2, ![64, 256]⟩
abbrev S100000x256 : Shape := ⟨2, ![100000, 256]⟩
abbrev S256x1 : Shape := ⟨2, ![256, 1]⟩
abbrev S100000x1 : Shape := ⟨2, ![100000, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S64x64, .f32⟩
  | .hbm, ⟨18, _⟩ => ⟨S100000x64, .f32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S64x256, .f32⟩
  | .hbm, ⟨69, _⟩ => ⟨S100000x256, .f32⟩
  | .hbm, ⟨70, _⟩ => ⟨S1x256, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S100000x256, .f32⟩
  | .hbm, ⟨75, _⟩ => ⟨S100000x256, .f32⟩
  | .hbm, ⟨76, _⟩ => ⟨S256x256, .f32⟩
  | .hbm, ⟨77, _⟩ => ⟨S100000x256, .f32⟩
  | .hbm, ⟨78, _⟩ => ⟨S1x256, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S100000x256, .f32⟩
  | .hbm, ⟨83, _⟩ => ⟨S100000x256, .f32⟩
  | .hbm, ⟨84, _⟩ => ⟨S256x1, .f32⟩
  | .hbm, ⟨85, _⟩ => ⟨S100000x1, .f32⟩
  | .hbm, ⟨86, _⟩ => ⟨S1x1, .f32⟩
  | .hbm, ⟨87, _⟩ => ⟨S100000x1, .f32⟩
  | .hbm, ⟨88, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_cst : Ref sig .tc := ⟨.hbm, 81, rfl⟩
abbrev main_call2_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  transposes_S64x64_S64x64_1_0 : S64x64.Transposes [1, 0] S64x64
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.HostSide.lean ====
/-
  What the region finds in the arrays its windows stage, as functions of the entry point's arguments.

  Before the region the host computes, from the arguments `x` (features), `edge_index`, the convolution's weight
  and the head's parameters:
    * window 0's array: the aggregation `aggK` — the transformed features `x · Wᵀ` scaled at the source row by
      `w = 1/√deg`, gathered along the update rows' sources, summed at their destinations, and scaled by `w` at
      the destination row;
    * window 2, 4, 6, 8's arrays: the bias vectors recast as one-row matrices;
    * window 3 and 5's arrays: the two weight matrices transposed (inputs by outputs);
  windows 1 and 7 stage arguments themselves. The update rows, the degree count and the transformed features are
  the SAME operations of the same arguments in the reference program, so they are named by the reference's stages.
-/
import proofs.«123784_j16509854285899_2_alg».proof.Proof.Gen.KernelIdeal.Frame
import proofs.«123784_j16509854285899_2_alg».proof.Proof.Gen.ReferenceIdeal.Read
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read (val_main_v8 val_main_v13 val_main_v34 val_main_v39 val_main_v40 val_main_v47 val_main_v53)

variable (m : (ℓ : Loc nD τ sig) → Buf (Elt Ideal) ℓ)

/-- A per-node factor `[N]` spread over the 64 columns of `[N, 64]`. -/
def spread (d : FVec Ideal S100000 .f32) : FVec Ideal S100000x64 .f32 :=
  broadcastInDim S100000x64 ![0, 1] bcast_S100000x1_S100000x64_0_1 (broadcastInDim S100000x1 ![0] bcast_S100000_S100000x1_0 d)

/-- Spread over the columns, every element of row `n` is the node's factor. -/
theorem spread_apply (d : FVec Ideal S100000 .f32) (p : S100000x64.Idx) : spread d p = d (ix1 (p 0)) := by
  unfold spread
  refine (broadcastInDim_apply _ bcast_S100000x1_S100000x64_0_1 _ p (ix2 (p 0) (0 : Fin 1)) (fun a => match a with
    | ⟨0, _⟩ => by show (p 0).val = if (100000 : Nat) = 1 then 0 else (p 0).val; rw [if_neg (by decide)]
    | ⟨1, _⟩ => by show 0 = if (1 : Nat) = 1 then 0 else (p 1).val; rw [if_pos rfl])).trans ?_
  exact broadcastInDim_apply _ bcast_S100000_S100000x1_0 d (ix2 (p 0) (0 : Fin 1)) (ix1 (p 0)) (fun a => match a with
    | ⟨0, _⟩ => by show (p 0).val = if (100000 : Nat) = 1 then 0 else (p 0).val; rw [if_neg (by decide)])

/-- The aggregation as the kernel's host side computes it: scale at the source, gather, sum at the destination, scale
    at the destination. -/
def aggK (x0 : FVec Ideal S100000x64 .f32) (x1 : IVec S2x1200000 32) (x2 : FVec Ideal S64x64 .f32) : FVec Ideal S100000x64 .f32 :=
  mulf (Host.scatterAdd scatter_S100000x64_S1300000x1_S1300000x64_1_0_0_1 (val_main_v39 (F := Ideal)) (val_main_v40 (F := Ideal) x1)
      (Host.gather gather_S100000x64_S1300000x1_S1300000x64_1_0_n_n_0_1_164
        (mulf (val_main_v8 (F := Ideal) x0 x2) (spread (val_main_v13 (F := Ideal) x1))) (val_main_v34 (F := Ideal) x1)))
    (spread (val_main_v13 (F := Ideal) x1))

set_option maxRecDepth 8192 in
set_option maxHeartbeats 16000000 in
theorem V_main_v29 (c : Dev nD) :
    (V m c main_v29 : S100000x64.Idx → EReal) = aggK (m ((c : Thread nD τ).loc main_arg0)) (m ((c : Thread nD τ).loc main_arg1)) (m ((c : Thread nD τ).loc main_arg2)) := by
  dsimp only [Gen.V, Gen.hostOps0]; after_results_simp <;> rfl

set_option maxRecDepth 8192 in
set_option maxHeartbeats 8000000 in
theorem V_main_v30 (c : Dev nD) :
    (V m c main_v30 : S1x64.Idx → EReal) = shapeCast S1x64 (m ((c : Thread nD τ).loc main_arg3)) shapeCasts_S64_S1x64 := by
  dsimp only [Gen.V, Gen.hostOps0]; after_results_simp <;> rfl

set_option maxRecDepth 8192 in
set_option maxHeartbeats 8000000 in
theorem V_main_v31 (c : Dev nD) :
    (V m c main_v31 : S64x256.Idx → EReal) = val_main_v47 (F := Ideal) (m ((c : Thread nD τ).loc main_arg4)) := by
  dsimp only [Gen.V, Gen.hostOps0]; after_results_simp <;> rfl

set_option maxRecDepth 8192 in
set_option maxHeartbeats 8000000 in
theorem V_main_v32 (c : Dev nD) :
    (V m c main_v32 : S1x256.Idx → EReal) = shapeCast S1x256 (m ((c : Thread nD τ).loc main_arg5)) shapeCasts_S256_S1x256 := by
  dsimp only [Gen.V, Gen.hostOps0]; after_results_simp <;> rfl

set_option maxRecDepth 8192 in
set_option maxHeartbeats 8000000 in
theorem V_main_v33 (c : Dev nD) :
    (V m c main_v33 : S256x256.Idx → EReal) = val_main_v53 (F := Ideal) (m ((c : Thread nD τ).loc main_arg6)) := by
  dsimp only [Gen.V, Gen.hostOps0]; after_results_simp <;> rfl

set_option maxRecDepth 8192 in
set_option maxHeartbeats 8000000 in
theorem V_main_v34 (c : Dev nD) :
    (V m c main_v34 : S1x256.Idx → EReal) = shapeCast S1x256 (m ((c : Thread nD τ).loc main_arg7)) shapeCasts_S256_S1x256 := by
  dsimp only [Gen.V, Gen.hostOps0]; after_results_simp <;> rfl

set_option maxRecDepth 8192 in
set_option maxHeartbeats 8000000 in
theorem V_main_v35 (c : Dev nD) :
    (V m c main_v35 : S1x1.Idx → EReal) = shapeCast S1x1 (m ((c : Thread nD τ).loc main_arg9)) shapeCasts_S1_S1x1 := by
  dsimp only [Gen.V, Gen.hostOps0]; after_results_simp <;> rfl

end Cert.KernelIdeal.HostSide

end
-- ==== Proof.WinRead.lean ====
/-
  The windows' blocks, read at an index, as elements of the entry point's arguments.

  Point `t` of the 25-point grid stages block row `t` of the aggregated features (window 0) and of the input
  features (window 1): element `(p, k)` of the block is element `(4000·t + p, k)` of the array. Every parameter
  window has one block, the whole array, at every point: the biases as one-row matrices (windows 2, 4, 6, 8:
  element `(0, k)` is the vector's `k`), the two weight matrices transposed (windows 3, 5: element `(k, j)` is
  the stored `(j, k)`) and the last layer's row as given (window 7).
-/
import proofs.«123784_j16509854285899_2_alg».proof.Proof.HostSide
import Idealize.ShloMosaic.Lib.Pipeline.Value
import Idealize.ShloMosaic.Lib.ValueLayout

set_option maxRecDepth 8192

noncomputable section

namespace Cert.KernelIdeal.WinRead

open Cert.KernelIdeal Cert.KernelIdeal.Gen Idealize.ShloMosaic Idealize.ShloMosaic.TcCoe Idealize.SL.Sem
open Idealize.ShloMosaic.ValueIdx Cert.KernelIdeal.HostSide
open Cert.ReferenceIdeal.Read (val_main_v47 val_main_v53)

variable (m : (ℓ : Loc nD τ sig) → Buf (Elt Ideal) ℓ)

/-- The printed index maps, decided over the 25 grid points: windows 0, 1 and 9 are at block row `t`, every other
    window at its one block. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 24 ∧ win0_9.index t (1 : Fin 2) = 0 :=
  (by decide +kernel : ∀ t : Fin grid0.N, _)

/-- Window 0's block at point `t` is rows `4000·t … 4000·t + 3999` of its array, whatever the array `A` holds. -/
theorem read0 (A : S100000x64.Idx → EReal) (t : Fin cfg0.N) (x : S4000x64.Idx) (k : S100000x64.Idx)
    (hk0 : (k 0).val = win0_9.index t (0 : Fin 2) * 4000 + (x 0).val) (hk1 : (k 1).val = (x 1).val) :
    ((cfg0.win 0).blk t).view.read (Elt Ideal) A x = A k := by
  obtain ⟨e00, e01, e10, e11, e20, e21, e30, e31, e40, e41, e50, e51, e60, e61, e70, e71, e80, e81, e90, e91⟩ := idx_facts t
  rw [View.read_apply]
  show A _ = A k
  refine congrArg A (funext fun a => Fin.ext ?_)
  match a with
  | ⟨0, _⟩ => show win0_0.index t (0 : Fin 2) * 4000 + 1 * (x 0).val = (k 0).val; rw [hk0]; omega
  | ⟨1, _⟩ => show win0_0.index t (1 : Fin 2) * 64 + 1 * (x 1).val = (k 1).val; rw [hk1]; omega

/-- Window 1's block at point `t` is rows `4000·t … 4000·t + 3999` of its array, whatever the array `A` holds. -/
theorem read1 (A : S100000x64.Idx → EReal) (t : Fin cfg0.N) (x : S4000x64.Idx) (k : S100000x64.Idx)
    (hk0 : (k 0).val = win0_9.index t (0 : Fin 2) * 4000 + (x 0).val) (hk1 : (k 1).val = (x 1).val) :
    ((cfg0.win 1).blk t).view.read (Elt Ideal) A x = A k := by
  obtain ⟨e00, e01, e10, e11, e20, e21, e30, e31, e40, e41, e50, e51, e60, e61, e70, e71, e80, e81, e90, e91⟩ := idx_facts t
  rw [View.read_apply]
  show A _ = A k
  refine congrArg A (funext fun a => Fin.ext ?_)
  match a with
  | ⟨0, _⟩ => show win0_1.index t (0 : Fin 2) * 4000 + 1 * (x 0).val = (k 0).val; rw [hk0]; omega
  | ⟨1, _⟩ => show win0_1.index t (1 : Fin 2) * 64 + 1 * (x 1).val = (k 1).val; rw [hk1]; omega

/-- Window 2 has one block, its whole array: read through the window, any array `A` of that shape is itself. -/
theorem read2 (A : S1x64.Idx → EReal) (t : Fin cfg0.N) (x : S1x64.Idx) :
    ((cfg0.win 2).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_2.index t (0 : Fin 2) * 1 + 1 * (x 0).val = (x 0).val; omega
  | ⟨1, _⟩ => show win0_2.index t (1 : Fin 2) * 64 + 1 * (x 1).val = (x 1).val; omega

/-- Window 3 has one block, its whole array: read through the window, any array `A` of that shape is itself. -/
theorem read3 (A : S64x256.Idx → EReal) (t : Fin cfg0.N) (x : S64x256.Idx) :
    ((cfg0.win 3).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_3.index t (0 : Fin 2) * 64 + 1 * (x 0).val = (x 0).val; omega
  | ⟨1, _⟩ => show win0_3.index t (1 : Fin 2) * 256 + 1 * (x 1).val = (x 1).val; omega

/-- Window 4 has one block, its whole array: read through the window, any array `A` of that shape is itself. -/
theorem read4 (A : S1x256.Idx → EReal) (t : Fin cfg0.N) (x : S1x256.Idx) :
    ((cfg0.win 4).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- Window 5 has one block, its whole array: read through the window, any array `A` of that shape is itself. -/
theorem read5 (A : S256x256.Idx → EReal) (t : Fin cfg0.N) (x : S256x256.Idx) :
    ((cfg0.win 5).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_5.index t (0 : Fin 2) * 256 + 1 * (x 0).val = (x 0).val; omega
  | ⟨1, _⟩ => show win0_5.index t (1 : Fin 2) * 256 + 1 * (x 1).val = (x 1).val; omega

/-- Window 6 has one block, its whole array: read through the window, any array `A` of that shape is itself. -/
theorem read6 (A : S1x256.Idx → EReal) (t : Fin cfg0.N) (x : S1x256.Idx) :
    ((cfg0.win 6).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_6.index t (0 : Fin 2) * 1 + 1 * (x 0).val = (x 0).val; omega
  | ⟨1, _⟩ => show win0_6.index t (1 : Fin 2) * 256 + 1 * (x 1).val = (x 1).val; omega

/-- Window 7 has one block, its whole array: read through the window, any array `A` of that shape is itself. -/
theorem read7 (A : S1x256.Idx → EReal) (t : Fin cfg0.N) (x : S1x256.Idx) :
    ((cfg0.win 7).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_7.index t (0 : Fin 2) * 1 + 1 * (x 0).val = (x 0).val; omega
  | ⟨1, _⟩ => show win0_7.index t (1 : Fin 2) * 256 + 1 * (x 1).val = (x 1).val; omega

/-- Window 8 has one block, its whole array: read through the window, any array `A` of that shape is itself. -/
theorem read8 (A : S1x1.Idx → EReal) (t : Fin cfg0.N) (x : S1x1.Idx) :
    ((cfg0.win 8).blk t).view.read (Elt Ideal) A x = A x := by
  obtain ⟨e00, e01, e10, e11, e20, e21, e30, e31, e40, e41, e50, e51, e60, e61, e70, e71, e80, e81, e90, e91⟩ := idx_facts t
  rw [View.read_apply]
  show A _ = A x
  refine congrArg A (funext fun a => Fin.ext ?_)
  match a with
  | ⟨0, _⟩ => show win0_8.index t (0 : Fin 2) * 1 + 1 * (x 0).val = (x 0).val; omega
  | ⟨1, _⟩ => show win0_8.index t (1 : Fin 2) * 1 + 1 * (x 1).val = (x 1).val; omega

/-- The result window's block at point `t` sits at rows `4000·t …` of the result, column 0. -/
theorem emb9 (t : Fin cfg0.N) (y : S4000x1.Idx) :
    (((cfg0.win 9).blk t).view.emb y 0).val = win0_9.index t (0 : Fin 2) * 4000 + (y 0).val := by
  show win0_9.index t (0 : Fin 2) * 4000 + 1 * (y 0).val = _; omega

/-- Read through the result window, any array `G` of the result's shape is `G` at the embedded index. -/
theorem read9 (G : S100000x1.Idx → EReal) (t : Fin cfg0.N) (y : S4000x1.Idx) :
    ((cfg0.win 9).blk t).view.read (Elt Ideal) G y = G (((cfg0.win 9).blk t).view.emb y) := by
  rw [View.read_apply]; rfl

/-- Cutting a block of the (uncut) result window re-reads it at the same coordinates. -/
theorem cut9 (X : S4000x1.Idx → EReal) (t : Fin cfg0.N) (y : ((cfg0.win 9).xblock (grid0.coords t)).Idx) :
    (cfg0.win 9).cut (grid0.coords t) X y = X ((cfg0.win 9).xinj (grid0.coords t) y) := rfl

variable (c : Dev nD) (t : Fin cfg0.N)

/-- Window 0: rows `4000·t …` of the host side's aggregation. -/
theorem iblk0 (x : S4000x64.Idx) (k : S100000x64.Idx)
    (hk0 : (k 0).val = win0_9.index t (0 : Fin 2) * 4000 + (x 0).val) (hk1 : (k 1).val = (x 1).val) :
    (iblk m c 0 t : FVec Ideal S4000x64 .f32) x
      = aggK (m ((c : Thread nD τ).loc main_arg0)) (m ((c : Thread nD τ).loc main_arg1)) (m ((c : Thread nD τ).loc main_arg2)) k := by
  have hV : (V m c (Pipeline.arrRef spec0 0) : S100000x64.Idx → EReal)
      = aggK (m ((c : Thread nD τ).loc main_arg0)) (m ((c : Thread nD τ).loc main_arg1)) (m ((c : Thread nD τ).loc main_arg2)) := V_main_v29 m c
  unfold iblk
  rw [hV]
  exact read0 _ t x k hk0 hk1

/-- Window 1: rows `4000·t …` of the input features. -/
theorem iblk1 (x : S4000x64.Idx) (k : S100000x64.Idx)
    (hk0 : (k 0).val = win0_9.index t (0 : Fin 2) * 4000 + (x 0).val) (hk1 : (k 1).val = (x 1).val) :
    (iblk m c 1 t : FVec Ideal S4000x64 .f32) x = (m ((c : Thread nD τ).loc main_arg0) : S100000x64.Idx → EReal) k := by
  have hV : (V m c (Pipeline.arrRef spec0 1) : S100000x64.Idx → EReal) = m ((c : Thread nD τ).loc main_arg0) := V_main_arg0 m c
  unfold iblk
  rw [hV]
  exact read1 _ t x k hk0 hk1

/-- Window 2: the convolution's bias as a one-row matrix. -/
theorem iblk2 (k : Fin 64) :
    (iblk m c 2 t : FVec Ideal S1x64 .f32) (ix2 (0 : Fin 1) k) = (m ((c : Thread nD τ).loc main_arg3) : S64.Idx → EReal) (ix1 k) := by
  have hV : (V m c (Pipeline.arrRef spec0 2) : S1x64.Idx → EReal) = shapeCast S1x64 (m ((c : Thread nD τ).loc main_arg3)) shapeCasts_S64_S1x64 := V_main_v30 m c
  unfold iblk
  rw [hV]
  exact (read2 _ t _).trans (shapeCast_a_1a_apply _ _ _ _)

/-- Window 3: the first layer's weight, inputs by outputs. -/
theorem iblk3 (k : Fin 64) (j : Fin 256) :
    (iblk m c 3 t : FVec Ideal S64x256 .f32) (ix2 k j) = (m ((c : Thread nD τ).loc main_arg4) : S256x64.Idx → EReal) (ix2 j k) := by
  have hV : (V m c (Pipeline.arrRef spec0 3) : S64x256.Idx → EReal) = val_main_v47 (F := Ideal) (m ((c : Thread nD τ).loc main_arg4)) := V_main_v31 m c
  unfold iblk
  rw [hV]
  refine (read3 _ t _).trans ?_
  unfold val_main_v47
  exact transpose_ix2_apply _ _ k j

/-- Window 4: the first layer's bias as a one-row matrix. -/
theorem iblk4 (j : Fin 256) :
    (iblk m c 4 t : FVec Ideal S1x256 .f32) (ix2 (0 : Fin 1) j) = (m ((c : Thread nD τ).loc main_arg5) : S256.Idx → EReal) (ix1 j) := by
  have hV : (V m c (Pipeline.arrRef spec0 4) : S1x256.Idx → EReal) = shapeCast S1x256 (m ((c : Thread nD τ).loc main_arg5)) shapeCasts_S256_S1x256 := V_main_v32 m c
  unfold iblk
  rw [hV]
  exact (read4 _ t _).trans (shapeCast_a_1a_apply _ _ _ _)

/-- Window 5: the second layer's weight, inputs by outputs. -/
theorem iblk5 (k : Fin 256) (j : Fin 256) :
    (iblk m c 5 t : FVec Ideal S256x256 .f32) (ix2 k j) = (m ((c : Thread nD τ).loc main_arg6) : S256x256.Idx → EReal) (ix2 j k) := by
  have hV : (V m c (Pipeline.arrRef spec0 5) : S256x256.Idx → EReal) = val_main_v53 (F := Ideal) (m ((c : Thread nD τ).loc main_arg6)) := V_main_v33 m c
  unfold iblk
  rw [hV]
  refine (read5 _ t _).trans ?_
  unfold val_main_v53
  exact transpose_ix2_apply _ _ k j

/-- Window 6: the second layer's bias as a one-row matrix. -/
theorem iblk6 (j : Fin 256) :
    (iblk m c 6 t : FVec Ideal S1x256 .f32) (ix2 (0 : Fin 1) j) = (m ((c : Thread nD τ).loc main_arg7) : S256.Idx → EReal) (ix1 j) := by
  have hV : (V m c (Pipeline.arrRef spec0 6) : S1x256.Idx → EReal) = shapeCast S1x256 (m ((c : Thread nD τ).loc main_arg7)) shapeCasts_S256_S1x256 := V_main_v34 m c
  unfold iblk
  rw [hV]
  exact (read6 _ t _).trans (shapeCast_a_1a_apply _ _ _ _)

/-- Window 7: the last layer's row, as given. -/
theorem iblk7 (k : Fin 256) :
    (iblk m c 7 t : FVec Ideal S1x256 .f32) (ix2 (0 : Fin 1) k) = (m ((c : Thread nD τ).loc main_arg8) : S1x256.Idx → EReal) (ix2 (0 : Fin 1) k) := by
  have hV : (V m c (Pipeline.arrRef spec0 7) : S1x256.Idx → EReal) = m ((c : Thread nD τ).loc main_arg8) := V_main_arg8 m c
  unfold iblk
  rw [hV]
  exact read7 _ t _

/-- Window 8: the last layer's bias as a one-by-one matrix. -/
theorem iblk8 :
    (iblk m c 8 t : FVec Ideal S1x1 .f32) (ix2 (0 : Fin 1) (0 : Fin 1)) = (m ((c : Thread nD τ).loc main_arg9) : S1.Idx → EReal) (ix1 (0 : Fin 1)) := by
  have hV : (V m c (Pipeline.arrRef spec0 8) : S1x1.Idx → EReal) = shapeCast S1x1 (m ((c : Thread nD τ).loc main_arg9)) shapeCasts_S1_S1x1 := V_main_v35 m c
  unfold iblk
  rw [hV]
  exact (read8 _ t _).trans (shapeCast_a_1a_apply _ _ _ _)

end Cert.KernelIdeal.WinRead

end
-- ==== Proof.Head.lean ====
/-
  The dense head of the network as ONE function of a node's row.

  For a node with aggregated features `a` and input features `x` (64 numbers each):
    h0 k = max (a k + b0 k) 0 + x k                                   (bias, rectifier, residual)
    h1 j = max (∑ k, h0 k * W1 k j + b1 j) 0                          (first layer, 64 → 256)
    h2 j = max (∑ k, h1 k * W2 k j + b2 j) 0                          (second layer, 256 → 256)
    out  = ∑ k, h2 k * w3 k + b3                                      (third layer, 256 → 1)
  on the extended reals. `W1 k j` is the weight from input `k` to output `j` (the TRANSPOSE of the stored
  `w1 : [256, 64]`), likewise `W2`. Both programs compute exactly this per row, from different layouts of the
  weights; `headOut` is the whole-array function, indexed by the result's `[100000, 1]` index.
-/
import Idealize.ShloMosaic.PureOps.Ideal
import Idealize.ShloMosaic.Lib.ValueIdx

noncomputable section

open scoped BigOperators

namespace Cert.Head

open Idealize.ShloMosaic Idealize.ShloMosaic.ValueIdx

/-- The residual block's output for one node. -/
def h0 (a x b0 : Fin 64 → EReal) (k : Fin 64) : EReal := max (a k + b0 k) 0 + x k

/-- The first dense layer for one node. -/
def h1 (a x b0 : Fin 64 → EReal) (W1 : Fin 64 → Fin 256 → EReal) (b1 : Fin 256 → EReal) (j : Fin 256) : EReal :=
  max (∑ k : Fin 64, h0 a x b0 k * W1 k j + b1 j) 0

/-- The second dense layer for one node. -/
def h2 (a x b0 : Fin 64 → EReal) (W1 : Fin 64 → Fin 256 → EReal) (b1 : Fin 256 → EReal)
    (W2 : Fin 256 → Fin 256 → EReal) (b2 : Fin 256 → EReal) (j : Fin 256) : EReal :=
  max (∑ k : Fin 256, h1 a x b0 W1 b1 k * W2 k j + b2 j) 0

/-- The head's scalar output for one node. -/
def rowOut (a x b0 : Fin 64 → EReal) (W1 : Fin 64 → Fin 256 → EReal) (b1 : Fin 256 → EReal)
    (W2 : Fin 256 → Fin 256 → EReal) (b2 : Fin 256 → EReal) (w3 : Fin 256 → EReal) (b3 : EReal) : EReal :=
  ∑ k : Fin 256, h2 a x b0 W1 b1 W2 b2 k * w3 k + b3

/-- The head over all nodes: from the aggregated features `A`, the inputs `x0` and the parameters as the
    entry point receives them (`w1 : [256, 64]`, `w2 : [256, 256]`, `w3 : [1, 256]`: outputs by inputs). -/
def headOut (A x0 : (⟨2, ![100000, 64]⟩ : Shape).Idx → EReal) (cb : (⟨1, ![64]⟩ : Shape).Idx → EReal)
    (w1 : (⟨2, ![256, 64]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![1, 256]⟩ : Shape).Idx → EReal) (b3 : (⟨1, ![1]⟩ : Shape).Idx → EReal) :
    (⟨2, ![100000, 1]⟩ : Shape).Idx → EReal :=
  fun i => rowOut (fun k => A (ix2 (i 0) k)) (fun k => x0 (ix2 (i 0) k)) (fun k => cb (ix1 k))
    (fun k j => w1 (ix2 j k)) (fun j => b1 (ix1 j)) (fun k j => w2 (ix2 j k)) (fun j => b2 (ix1 j))
    (fun k => w3 (ix2 (0 : Fin 1) k)) (b3 (ix1 (0 : Fin 1)))

end Cert.Head

end
-- ==== Proof.BlockRow.lean ====
import proofs.«123784_j16509854285899_2_alg».proof.Proof.Gen.KernelIdeal.Skeleton
import proofs.«123784_j16509854285899_2_alg».proof.Proof.Head
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockRow

open Cert.KernelIdeal Cert.KernelIdeal.Gen Idealize.ShloMosaic Idealize.ShloMosaic.ValueIdx

/-- The residual block read at (p, k): bias, rectifier, residual (the format change is the identity on
    extended reals). -/
private theorem res_apply (v0 v2 : FVec Ideal S4000x64 .f32) (v3 : FVec Ideal S1x64 .f32) (p : Fin 4000) (k : Fin 64) :
    (truncf .bf16 (addf (maximumf (addf (shapeCast S4000x64 v0 shapeCasts_S4000x64_S4000x64)
        (broadcastTo S4000x64 (shapeCast S1x64 v3 shapeCasts_S1x64_S1x64) broadcasts_S1x64_S4000x64))
        (broadcast S4000x64 (Scalar.ofBits (F := Ideal) .f32 0x00000000#32))) v2) bitsLt_bf16_f32 : FVec Ideal S4000x64 .bf16) (ix2 p k)
      = max (v0 (ix2 p k) + v3 (ix2 (0 : Fin 1) k)) 0 + v2 (ix2 p k) := by
  rw [shapeCast_self, shapeCast_self]
  show max (v0 (ix2 p k) + broadcastTo S4000x64 v3 broadcasts_S1x64_S4000x64 (ix2 p k)) (Ideal.ofBits .f32 0x00000000#32)
    + v2 (ix2 p k) = _
  rw [broadcastTo_1b_ab_apply, Ideal.ofBits_zero_f32]

/-- A dense layer's bias and rectifier read at (p, j). -/
private theorem bias_relu_apply (m : FVec Ideal S4000x256 .f32) (b : FVec Ideal S1x256 .f32) (p : Fin 4000) (j : Fin 256) :
    (maximumf (addf m (broadcastTo S4000x256 (shapeCast S1x256 b shapeCasts_S1x256_S1x256) broadcasts_S1x256_S4000x256))
        (broadcast S4000x256 (Scalar.ofBits (F := Ideal) .f32 0x00000000#32)) : FVec Ideal S4000x256 .f32) (ix2 p j)
      = max (m (ix2 p j) + b (ix2 (0 : Fin 1) j)) 0 := by
  rw [shapeCast_self]
  show max (m (ix2 p j) + broadcastTo S4000x256 b broadcasts_S1x256_S4000x256 (ix2 p j)) (Ideal.ofBits .f32 0x00000000#32) = _
  rw [broadcastTo_1b_ab_apply, Ideal.ofBits_zero_f32]

/-- A weight block as the matrix unit reads it: cast to its own shape and changed in format, both the identity. -/
private theorem weight_apply {s : Shape} (v : FVec Ideal s .f32) (h : s.ShapeCasts s) (i : s.Idx) :
    (truncf .bf16 (shapeCast s v h) bitsLt_bf16_f32 : FVec Ideal s .bf16) i = v i := by
  rw [shapeCast_self]
  rfl

/-- The readout read at row p: the lane sum of the products with the broadcast row, stored as a column. -/
private theorem readout_apply (y : FVec Ideal S4000x256 .f32) (r : FVec Ideal S1x256 .f32) (p : Fin 4000) :
    shapeCast S4000x1 (multiReduction (F := Ideal) .add [1] S4000 (mulf y (broadcastTo S4000x256 r broadcasts_S1x256_S4000x256))
        0x00000000#32 reduces_S4000x256_S4000 (.inl rfl) rfl) shapeCasts_S4000_S4000x1 (ix2 p (0 : Fin 1))
      = ∑ k : Fin 256, y (ix2 p k) * r (ix2 (0 : Fin 1) k) := by
  refine (shapeCast_apply _ shapeCasts_S4000_S4000x1 (ix2 p (0 : Fin 1)) (ix1 p) ?_).trans ?_
  · rw [Shape.rowMajor_val_one, Shape.rowMajor_val_two]
    show p.val = p.val * 1 + 0
    omega
  refine (Ideal.multiReduction_add_single _ _ reduces_S4000x256_S4000 _ _ (ix1 p)).trans ?_
  refine Finset.sum_congr rfl fun (k : Fin 256) _ => ?_
  have hl : reduces_S4000x256_S4000.lift (ix1 p) k = ix2 p k :=
    funext fun a => Fin.ext (by
      match a with
      | ⟨0, _⟩ => rfl
      | ⟨1, _⟩ => rfl)
  rw [hl]
  exact congrArg (y (ix2 p k) * ·) (broadcastTo_1b_ab_apply r broadcasts_S1x256_S4000x256 p k)

/-- The left operand's index on its kept axis is the output's row. -/
private theorem lhsA_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
/-- The left operand's index on its contracted axis is the contraction coordinate. -/
private theorem lhsA_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
/-- The right operand's index on its contracted axis is the contraction coordinate. -/
private theorem rhsA_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
/-- The right operand's index on its kept axis is the output's column. -/
private theorem rhsA_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- The matrix product into a zero accumulator, read at (p, j): the sum over the 64 contracted coordinates of the
    left operand's row p times the right operand's column j. -/
private theorem mmA_apply (x : FVec Ideal S4000x64 .bf16) (w : FVec Ideal S64x256 .bf16) (p : Fin 4000) (j : Fin 256) :
    matmul dot_S4000x64_S64x256_S4000x256_1_0_0_1_n_n none x w (constant (F := Ideal) S4000x256 .f32 0x00000000#32) (ix2 p j)
      = ∑ k : Fin 64, x (ix2 p k) * w (ix2 k j) := by
  refine (Ideal.matmul_constant_zero_apply dot_S4000x64_S64x256_S4000x256_1_0_0_1_n_n none x w (ix2 p j)).trans ?_
  rw [← Equiv.sum_comp (ValueIdx.contrEquiv1 dot_S4000x64_S64x256_S4000x256_1_0_0_1_n_n 64 rfl rfl).symm]
  refine Finset.sum_congr rfl fun k _ => ?_
  have hk := ValueIdx.contrEquiv1_symm_val dot_S4000x64_S64x256_S4000x256_1_0_0_1_n_n 64 rfl rfl k
  have el : dot_S4000x64_S64x256_S4000x256_1_0_0_1_n_n.lhsIdx (ix2 p j) ((ValueIdx.contrEquiv1 dot_S4000x64_S64x256_S4000x256_1_0_0_1_n_n 64 rfl rfl).symm k) = ix2 p k :=
    funext fun a => Fin.ext (by
      match a with
      | ⟨0, _⟩ => exact lhsA_0 _ _
      | ⟨1, _⟩ => exact (lhsA_1 _ _).trans hk)
  have er : dot_S4000x64_S64x256_S4000x256_1_0_0_1_n_n.rhsIdx (ix2 p j) ((ValueIdx.contrEquiv1 dot_S4000x64_S64x256_S4000x256_1_0_0_1_n_n 64 rfl rfl).symm k) = ix2 k j :=
    funext fun a => Fin.ext (by
      match a with
      | ⟨0, _⟩ => exact (rhsA_0 _ _).trans hk
      | ⟨1, _⟩ => exact rhsA_1 _ _)
  rw [el, er]

/-- The left operand's index on its kept axis is the output's row. -/
private theorem lhsB_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- The left operand's index on its contracted axis is the contraction coordinate. -/
private theorem lhsB_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- The right operand's index on its contracted axis is the contraction coordinate. -/
private theorem rhsB_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- The right operand's index on its kept axis is the output's column. -/
private theorem rhsB_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The matrix product into a zero accumulator, read at (p, j): the sum over the 256 contracted coordinates of the
    left operand's row p times the right operand's column j. -/
private theorem mmB_apply (x : FVec Ideal S4000x256 .bf16) (w : FVec Ideal S256x256 .bf16) (p : Fin 4000) (j : Fin 256) :
    matmul dot_S4000x256_S256x256_S4000x256_1_0_0_1_n_n none x w (constant (F := Ideal) S4000x256 .f32 0x00000000#32) (ix2 p j)
      = ∑ k : Fin 256, x (ix2 p k) * w (ix2 k j) := by
  refine (Ideal.matmul_constant_zero_apply dot_S4000x256_S256x256_S4000x256_1_0_0_1_n_n none x w (ix2 p j)).trans ?_
  rw [← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p j) ((ValueIdx.contrEquiv1 dot_S4000x256_S256x256_S4000x256_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S4000x256_S256x256_S4000x256_1_0_0_1_n_n.rhsIdx (ix2 p j) ((ValueIdx.contrEquiv1 dot_S4000x256_S256x256_S4000x256_1_0_0_1_n_n 256 rfl rfl).symm k) = ix2 k j :=
    funext fun a => Fin.ext (by
      match a with
      | ⟨0, _⟩ => exact (rhsB_0 _ _).trans hk
      | ⟨1, _⟩ => exact rhsB_1 _ _)
  rw [el, er]

/-- Row `p` of the body's second-layer-and-readout payload: the third layer's sum over the second layer's
    256 outputs for the node in row `p` of the block, the weights read from the blocks as the body loads them
    (`P3 : [64, 256]` and `P5 : [256, 256]` are inputs by outputs). -/
theorem pay2_row (P0 P1 : FVec Ideal S4000x64 .f32) (P2 : FVec Ideal S1x64 .f32) (P3 : FVec Ideal S64x256 .f32)
    (P4 : FVec Ideal S1x256 .f32) (P5 : FVec Ideal S256x256 .f32) (P6 P7 : FVec Ideal S1x256 .f32) (p : Fin 4000) :
    k0_pay2 (F := Ideal) P0 P1 P2 P3 P4 P5 P6 P7 (ix2 p (0 : Fin 1))
      = ∑ k : Fin 256, Cert.Head.h2 (fun k => P0 (ix2 p k)) (fun k => P1 (ix2 p k)) (fun k => P2 (ix2 (0 : Fin 1) k))
          (fun k j => P3 (ix2 k j)) (fun j => P4 (ix2 (0 : Fin 1) j)) (fun k j => P5 (ix2 k j))
          (fun j => P6 (ix2 (0 : Fin 1) j)) k * P7 (ix2 (0 : Fin 1) k) := by
  unfold k0_pay2
  -- the readout: a sum over the second layer's 256 outputs
  refine (readout_apply _ P7 p).trans ?_
  refine Finset.sum_congr rfl fun k _ => ?_
  refine congrArg (· * P7 (ix2 (0 : Fin 1) k)) ?_
  -- the second layer at output k
  refine (bias_relu_apply _ P6 p k).trans ?_
  unfold Cert.Head.h2
  refine congrArg (fun t => max (t + P6 (ix2 (0 : Fin 1) k)) 0) ?_
  refine (mmB_apply _ _ p k).trans ?_
  refine Finset.sum_congr rfl fun k1 _ => ?_
  refine congrArg₂ (· * ·) ?_ (weight_apply P5 _ (ix2 k1 k))
  -- the first layer at output k1
  refine (truncf_apply (ψ := .bf16) _ bitsLt_bf16_f32 (ix2 p k1)).trans ?_
  refine (bias_relu_apply _ P4 p k1).trans ?_
  unfold Cert.Head.h1
  refine congrArg (fun t => max (t + P4 (ix2 (0 : Fin 1) k1)) 0) ?_
  refine (mmA_apply _ _ p k1).trans ?_
  refine Finset.sum_congr rfl fun k0 _ => ?_
  refine congrArg₂ (· * ·) ?_ (weight_apply P3 _ (ix2 k0 k1))
  -- the residual block at input k0
  exact res_apply P0 P1 P2 p k0

end Cert.KernelIdeal.BlockRow

end
-- ==== Proof.KernelFinal.lean ====
/-
  The kernel's result array is the head applied, row by row, to the aggregated features the region finds.

  The grid has 25 points; point `t` stages rows `4000·t … 4000·t + 3999` of the aggregated features (window 0)
  and of the input features (window 1), the whole of every parameter array (windows 2–8), and writes back rows
  `4000·t … 4000·t + 3999` of the `[100000, 1]` result (window 9). The body's one store leaves, in row `p` of
  the block, the head's output for the node in row `p` (`BlockRow.pay2_row` and the last bias); read through the
  windows that node is `4000·t + p`, so what point `t` writes back is block `t` of `GK`, the head over all
  nodes. The 25 blocks cover the result, so the array after the run is `GK`.
-/
import proofs.«123784_j16509854285899_2_alg».proof.Proof.KernelValueP
import proofs.«123784_j16509854285899_2_alg».proof.Proof.WinRead
import proofs.«123784_j16509854285899_2_alg».proof.Proof.BlockRow
import proofs.«123784_j16509854285899_2_alg».proof.Proof.Head
import Idealize.ShloMosaic.Lib.Pipeline.Value
import Idealize.ShloMosaic.Lib.ValueLayout

set_option maxRecDepth 8192

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.HostSide Cert.KernelIdeal.WinRead Cert.Head

variable (m : (ℓ : Loc nD τ sig) → Buf (Elt Ideal) ℓ) (ρ : Dev nD → PrngReg)

/-- The result array as ONE function of the arguments: the head over all nodes, of the host side's aggregation. -/
def GK (c : Dev nD) : S100000x1.Idx → EReal :=
  headOut (aggK (m ((c : Thread nD τ).loc main_arg0)) (m ((c : Thread nD τ).loc main_arg1)) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- `GK` at an index of the result: the head's output for the node in that row. -/
theorem GK_apply (c : Dev nD) (i : S100000x1.Idx) :
    GK m c i = rowOut
      (fun k => aggK (m ((c : Thread nD τ).loc main_arg0)) (m ((c : Thread nD τ).loc main_arg1)) (m ((c : Thread nD τ).loc main_arg2)) (ix2 (i 0) k))
      (fun k => (m ((c : Thread nD τ).loc main_arg0) : S100000x64.Idx → EReal) (ix2 (i 0) k))
      (fun k => (m ((c : Thread nD τ).loc main_arg3) : S64.Idx → EReal) (ix1 k))
      (fun k j => (m ((c : Thread nD τ).loc main_arg4) : S256x64.Idx → EReal) (ix2 j k))
      (fun j => (m ((c : Thread nD τ).loc main_arg5) : S256.Idx → EReal) (ix1 j))
      (fun k j => (m ((c : Thread nD τ).loc main_arg6) : S256x256.Idx → EReal) (ix2 j k))
      (fun j => (m ((c : Thread nD τ).loc main_arg7) : S256.Idx → EReal) (ix1 j))
      (fun k => (m ((c : Thread nD τ).loc main_arg8) : S1x256.Idx → EReal) (ix2 (0 : Fin 1) k))
      ((m ((c : Thread nD τ).loc main_arg9) : S1.Idx → EReal) (ix1 (0 : Fin 1))) := rfl

theorem hz : (![0, 0] : Fin 2 → Nat) = fun _ => 0 := funext fun a => by fin_cases a <;> rfl

/-- ROW `p` OF THE BLOCK THE BODY LEAVES, for arbitrary loaded blocks: the head's output for that row. -/
theorem block_row (P0 P1 : FVec Ideal S4000x64 .f32) (P2 : FVec Ideal S1x64 .f32) (P3 : FVec Ideal S64x256 .f32)
    (P4 : FVec Ideal S1x256 .f32) (P5 : FVec Ideal S256x256 .f32) (P6 P7 : FVec Ideal S1x256 .f32)
    (P8 : FVec Ideal S1x1 .f32) (p : Fin 4000) (q : Fin 1) :
    k0_pay1 (F := Ideal) (k0_pay2 (F := Ideal) P0 P1 P2 P3 P4 P5 P6 P7) P8 (ix2 p q)
      = rowOut (fun k => P0 (ix2 p k)) (fun k => P1 (ix2 p k)) (fun k => P2 (ix2 (0 : Fin 1) k))
          (fun k j => P3 (ix2 k j)) (fun j => P4 (ix2 (0 : Fin 1) j)) (fun k j => P5 (ix2 k j))
          (fun j => P6 (ix2 (0 : Fin 1) j)) (fun k => P7 (ix2 (0 : Fin 1) k)) (P8 (ix2 (0 : Fin 1) (0 : Fin 1))) := by
  have hq : q = 0 := Fin.ext (by omega)
  subst hq
  show (k0_pay2 (F := Ideal) P0 P1 P2 P3 P4 P5 P6 P7) (ix2 p (0 : Fin 1))
      + (broadcastTo S4000x1 (shapeCast S1x1 P8 shapeCasts_S1x1_S1x1) broadcasts_S1x1_S4000x1) (ix2 p (0 : Fin 1)) = _
  rw [BlockRow.pay2_row, shapeCast_self, broadcastTo_1b_ab_apply]
  rfl

/-- The same at any index `y` of the block. -/
theorem block_row_at (P0 P1 : FVec Ideal S4000x64 .f32) (P2 : FVec Ideal S1x64 .f32) (P3 : FVec Ideal S64x256 .f32)
    (P4 : FVec Ideal S1x256 .f32) (P5 : FVec Ideal S256x256 .f32) (P6 P7 : FVec Ideal S1x256 .f32)
    (P8 : FVec Ideal S1x1 .f32) (y : S4000x1.Idx) :
    k0_pay1 (F := Ideal) (k0_pay2 (F := Ideal) P0 P1 P2 P3 P4 P5 P6 P7) P8 y
      = rowOut (fun k => P0 (ix2 (y 0) k)) (fun k => P1 (ix2 (y 0) k)) (fun k => P2 (ix2 (0 : Fin 1) k))
          (fun k j => P3 (ix2 k j)) (fun j => P4 (ix2 (0 : Fin 1) j)) (fun k j => P5 (ix2 k j))
          (fun j => P6 (ix2 (0 : Fin 1) j)) (fun k => P7 (ix2 (0 : Fin 1) k)) (P8 (ix2 (0 : Fin 1) (0 : Fin 1))) := by
  obtain ⟨p, q, rfl⟩ : ∃ (p : Fin 4000) (q : Fin 1), y = ix2 p q := ⟨y 0, y 1, eq_ix2 y⟩
  exact block_row P0 P1 P2 P3 P4 P5 P6 P7 P8 p q

/-- Every block row of the result is some point's. -/
theorem idx_onto : ∀ q0 : Fin 25, ∃ t : Fin cfg0.N, win0_9.index t = ![q0.val, 0] :=
  (by decide +kernel : ∀ q0 : Fin 25, ∃ t : Fin grid0.N, win0_9.index t = ![q0.val, 0])

/-- WHAT POINT `t` WRITES BACK is block `t` of `GK`. -/
theorem flushed_eq (c : Dev nD) (t : Fin cfg0.N) :
    (dats m 0 c).flushed 9 t = ((cfg0.win 9).blk t).view.read (Elt Ideal) (GK m c) := by
  show (cfg0.win 9).cut (grid0.coords t) ((dats m 0 c).after 9 t) = _
  rw [after0_9]
  unfold out0_9
  rw [View.canon_unit_zero hz]
  simp only [View.ld_unit_zero (S := S4000x64) hz, View.ld_unit_zero (S := S1x64) hz, View.ld_unit_zero (S := S64x256) hz,
    View.ld_unit_zero (S := S1x256) hz, View.ld_unit_zero (S := S256x256) hz, View.ld_unit_zero (S := S1x1) hz]
  funext y
  rw [cut9, read9]
  refine (block_row_at (iblk m c 0 t) (iblk m c 1 t) (iblk m c 2 t) (iblk m c 3 t) (iblk m c 4 t)
      (iblk m c 5 t) (iblk m c 6 t) (iblk m c 7 t) (iblk m c 8 t) ((cfg0.win 9).xinj (grid0.coords t) y)).trans ?_
  have a0 : (fun k : Fin 64 => (iblk m c 0 t : FVec Ideal S4000x64 .f32) (ix2 ((cfg0.win 9).xinj (grid0.coords t) y 0) k))
      = fun k : Fin 64 => aggK (m ((c : Thread nD τ).loc main_arg0)) (m ((c : Thread nD τ).loc main_arg1)) (m ((c : Thread nD τ).loc main_arg2))
          (ix2 (((cfg0.win 9).blk t).view.emb y 0) k) :=
    funext fun k => iblk0 m c t _ _ (emb9 t y) rfl
  have a1 : (fun k : Fin 64 => (iblk m c 1 t : FVec Ideal S4000x64 .f32) (ix2 ((cfg0.win 9).xinj (grid0.coords t) y 0) k))
      = fun k : Fin 64 => (m ((c : Thread nD τ).loc main_arg0) : S100000x64.Idx → EReal) (ix2 (((cfg0.win 9).blk t).view.emb y 0) k) :=
    funext fun k => iblk1 m c t _ _ (emb9 t y) rfl
  have a2 : (fun k : Fin 64 => (iblk m c 2 t : FVec Ideal S1x64 .f32) (ix2 (0 : Fin 1) k))
      = fun k : Fin 64 => (m ((c : Thread nD τ).loc main_arg3) : S64.Idx → EReal) (ix1 k) := funext (iblk2 m c t)
  have a3 : (fun (k : Fin 64) (j : Fin 256) => (iblk m c 3 t : FVec Ideal S64x256 .f32) (ix2 k j))
      = fun (k : Fin 64) (j : Fin 256) => (m ((c : Thread nD τ).loc main_arg4) : S256x64.Idx → EReal) (ix2 j k) :=
    funext fun k => funext fun j => iblk3 m c t k j
  have a4 : (fun j : Fin 256 => (iblk m c 4 t : FVec Ideal S1x256 .f32) (ix2 (0 : Fin 1) j))
      = fun j : Fin 256 => (m ((c : Thread nD τ).loc main_arg5) : S256.Idx → EReal) (ix1 j) := funext (iblk4 m c t)
  have a5 : (fun (k : Fin 256) (j : Fin 256) => (iblk m c 5 t : FVec Ideal S256x256 .f32) (ix2 k j))
      = fun (k : Fin 256) (j : Fin 256) => (m ((c : Thread nD τ).loc main_arg6) : S256x256.Idx → EReal) (ix2 j k) :=
    funext fun k => funext fun j => iblk5 m c t k j
  have a6 : (fun j : Fin 256 => (iblk m c 6 t : FVec Ideal S1x256 .f32) (ix2 (0 : Fin 1) j))
      = fun j : Fin 256 => (m ((c : Thread nD τ).loc main_arg7) : S256.Idx → EReal) (ix1 j) := funext (iblk6 m c t)
  have a7 : (fun k : Fin 256 => (iblk m c 7 t : FVec Ideal S1x256 .f32) (ix2 (0 : Fin 1) k))
      = fun k : Fin 256 => (m ((c : Thread nD τ).loc main_arg8) : S1x256.Idx → EReal) (ix2 (0 : Fin 1) k) := funext (iblk7 m c t)
  have a8 := iblk8 m c t
  rw [a0, a1, a2, a3, a4, a5, a6, a7, a8]
  exact (GK_apply m c _).symm

/-- An index of the result is in point `t`'s block iff each coordinate is in the block's range on its axis. -/
theorem mem_blk (t : Fin cfg0.N) (i : S100000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v36).slice (win0_9.rect t)).set ↔ _
  rw [View.set_slice_whole, Rect.mem_set_unit]
  exact Iff.rfl

/-- The 25 blocks cover the result: row `r` is in the block of the point at block row `r / 4000`. -/
theorem cover (i : S100000x1.Idx) : ∃ t : Fin cfg0.N, (cfg0.win 9).flush t = true ∧ i ∈ ((cfg0.win 9).blk t).view.set := by
  have hi0 : (i 0).val < 100000 := (i 0).isLt
  have hi1 : (i 1).val < 1 := (i 1).isLt
  obtain ⟨t, ht⟩ := idx_onto ⟨(i 0).val / 4000, by omega⟩
  have q0 : win0_9.index t (0 : Fin 2) = (i 0).val / 4000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 1 ≤ (i 1).val ∧ (i 1).val < win0_9.index t (1 : Fin 2) * 1 + 1; omega

/-- THE RESULT ARRAY after the run is `GK`. -/
theorem final (c : Dev nD) : (dats m 0 c).arrAt 9 cfg0.N = GK m c :=
  (dats m 0 c).arrAt_eq_of_cover 9 (GK m c) (fun t _ => flushed_eq m c t) cover

/-- The kernel's run: every weakly fair execution terminates with the result at `GK` and the arguments unchanged. -/
theorem run : θ_run defs (onTc (τ := τ) (main (F := Ideal))) ⟨m, fun _ => 0, ρ⟩ fun r => ∀ c : Dev nD,
      r.2.mem ((c : Thread nD τ).loc main_v36) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (ValueP.run_blocks m ρ)

end Cert.KernelIdeal.Final

end
-- ==== Proof.RowIndex.lean ====
import Idealize.ShloMosaic.PureOps.Ideal
import Idealize.ShloMosaic.Lib.ValueIdx

noncomputable section

namespace Cert.RowIndex

open Idealize.ShloMosaic Idealize.ShloMosaic.ValueIdx

/-- Scatter of rows: operand [N, C], one scalar row index per update row ([E, 1]), updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of scalars: operand [N], one scalar index per update ([E, 1]), updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of rows: operand [N, C], one scalar row index per result row ([E, 1]), result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of scalars: operand [N], one scalar index per result element ([E, 1]), result [E]. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Update row `e` reads its row index at `[e, 0]`. -/
abbrev at0 {E : Nat} (e : Fin E) : (⟨2, ![E, 1]⟩ : Shape).Idx := ix2 e (⟨0, Nat.one_pos⟩ : Fin 1)

/-- A scatter update lands at operand index i exactly when, on every operand axis, the signed
    start plus the window coordinate is the coordinate of i: the range condition then holds because
    that coordinate is in range, and conversely the landing index is that sum. -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      show _ = (((d.start j idx a + d.window j a).toNat : Nat) : Int)
      omega
    · intro hall
      funext a
      refine Fin.ext ?_
      show (d.start j idx a + d.window j a).toNat = (i a).val
      have h1 := hall a
      omega
  · rename_i h
    constructor
    · intro hi; cases hi
    · intro hall
      exfalso; apply h
      intro a
      have h1 := hall a
      have h2 := (i a).isLt
      omega

/-- Axis 1 of a rank-2 shape is not in the one-element list of axis 0. -/
private theorem one_not_mem_zero : (1 : Fin 2) ∉ [(0 : Fin 2)] := by decide

/-- An operand axis is kept (receives a window axis) exactly when it is not an inserted one. -/
private theorem scatter_mem_sKept {s si u : Shape} (d : ScatterDims s si u) (a : Fin s.rank) :
    a ∈ d.sKept ↔ a ∉ d.insertedWindowDims := by
  simp [ScatterDims.sKept, Shape.kept, List.mem_filter, List.mem_finRange]

theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatter N E C wf).resultIdx? j idx = some i ↔
      ((idx (at0 (j 0))).toInt = ((i 0).val : Int) ∧ (j 1).val = (i 1).val) := by
  rw [resultIdx?_eq_some_iff]
  -- axis 0: the start is the row index read at [j 0, 0], the window coordinate is 0 (inserted axis)
  have hm0 : (0 : Fin 2) ∈ (rowScatter N E C wf).scatterDimsToOperandDims := List.mem_singleton.mpr rfl
  have hs0 : (rowScatter N E C wf).start j idx 0 = (idx (at0 (j 0))).toInt := by
    unfold ScatterDims.start
    rw [dif_pos hm0]
    have hsi : (rowScatter N E C wf).siIdx j ⟨List.idxOf (0 : Fin 2) (rowScatter N E C wf).scatterDimsToOperandDims,
        List.idxOf_lt_length_iff.2 hm0⟩ = at0 (j 0) := by
      funext b; refine Fin.ext ?_
      match b with
      | ⟨0, _⟩ => rfl
      | ⟨1, _⟩ => rfl
    rw [hsi]
    rfl
  have hw0 : (rowScatter N E C wf).window j 0 = 0 := by
    unfold ScatterDims.window
    rw [dif_neg (fun h => (scatter_mem_sKept _ _).mp h (List.mem_singleton.mpr rfl))]
  -- axis 1: no start component, the window coordinate is j 1
  have hs1 : (rowScatter N E C wf).start j idx 1 = 0 := by
    unfold ScatterDims.start
    rw [dif_neg one_not_mem_zero]
  have hw1 : (rowScatter N E C wf).window j 1 = (j 1).val := by
    unfold ScatterDims.window
    rw [dif_pos ((scatter_mem_sKept _ _).mpr one_not_mem_zero)]
    rfl
  constructor
  · intro h
    have h0 := h 0
    have h1 := h 1
    rw [hs0, hw0] at h0
    rw [hs1, hw1] at h1
    exact ⟨by omega, by omega⟩
  · rintro ⟨h0, h1⟩ a
    match a with
    | ⟨0, _⟩ =>
      show (rowScatter N E C wf).start j idx 0 + ((rowScatter N E C wf).window j 0 : Int) = ((i 0).val : Int)
      rw [hs0, hw0]; omega
    | ⟨1, _⟩ =>
      show (rowScatter N E C wf).start j idx 1 + ((rowScatter N E C wf).window j 1 : Int) = ((i 1).val : Int)
      rw [hs1, hw1]; omega

theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatter N E wf).resultIdx? j idx = some i ↔ (idx (at0 (j 0))).toInt = ((i 0).val : Int) := by
  rw [resultIdx?_eq_some_iff]
  -- the one operand axis: the start is the index read at [j 0, 0], the window coordinate is 0 (inserted axis)
  have hm0 : (0 : Fin 1) ∈ (vecScatter N E wf).scatterDimsToOperandDims := List.mem_singleton.mpr rfl
  have hs0 : (vecScatter N E wf).start j idx 0 = (idx (at0 (j 0))).toInt := by
    unfold ScatterDims.start
    rw [dif_pos hm0]
    have hsi : (vecScatter N E wf).siIdx j ⟨List.idxOf (0 : Fin 1) (vecScatter N E wf).scatterDimsToOperandDims,
        List.idxOf_lt_length_iff.2 hm0⟩ = at0 (j 0) := by
      funext b; refine Fin.ext ?_
      match b with
      | ⟨0, _⟩ => rfl
      | ⟨1, _⟩ => rfl
    rw [hsi]
    rfl
  have hw0 : (vecScatter N E wf).window j 0 = 0 := by
    unfold ScatterDims.window
    rw [dif_neg (fun h => (scatter_mem_sKept _ _).mp h (List.mem_singleton.mpr rfl))]
  constructor
  · intro h
    have h0 := h 0
    rw [hs0, hw0] at h0
    omega
  · intro h0 a
    obtain rfl : a = 0 := Subsingleton.elim _ _
    rw [hs0, hw0]; omega

theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGather N E C wf) x idx j
      = x (ix2 (⟨min (idx (at0 (j 0))).toInt.toNat (N - 1), by omega⟩ : Fin N) (j 1)) := by
  unfold Host.gather
  congr 1
  funext a
  refine Fin.ext ?_
  have hm0 : (0 : Fin 2) ∈ (rowGather N E C wf).startIndexMap := List.mem_singleton.mpr rfl
  match a with
  | ⟨0, _⟩ =>
    -- axis 0 is collapsed: the clamped start alone, with slice size 1
    show (rowGather N E C wf).start j idx 0 + (rowGather N E C wf).batchCoord j 0
      + (rowGather N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm0]
    have hsi : (rowGather N E C wf).siIdx j ⟨List.idxOf (0 : Fin 2) (rowGather N E C wf).startIndexMap,
        List.idxOf_lt_length_iff.2 hm0⟩ = at0 (j 0) := by
      funext b; refine Fin.ext ?_
      match b with
      | ⟨0, _⟩ => rfl
      | ⟨1, _⟩ => rfl
    rw [hsi]
    rfl
  | ⟨1, _⟩ =>
    -- axis 1 is the one offset axis: no start component, the offset coordinate is j 1
    show (rowGather N E C wf).start j idx 1 + (rowGather N E C wf).batchCoord j 1
      + (rowGather N E C wf).offCoord j 1 = (j 1).val
    have hs1 : (rowGather N E C wf).start j idx 1 = 0 := by
      unfold GatherDims.start
      rw [dif_neg one_not_mem_zero]
    have ho1 : (rowGather N E C wf).offCoord j 1 = (j 1).val := by
      unfold GatherDims.offCoord
      rw [dif_pos ((GatherDims.mem_sKept _ _).mpr ⟨one_not_mem_zero, List.not_mem_nil⟩)]
      rfl
    rw [GatherDims.batchCoord_eq_zero _ _ _ List.not_mem_nil, hs1, ho1]
    omega

theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (vecGather N E wf) x idx j
      = x (ix1 (⟨min (idx (at0 (j 0))).toInt.toNat (N - 1), by omega⟩ : Fin N)) := by
  unfold Host.gather
  congr 1
  funext a
  obtain rfl : a = 0 := Subsingleton.elim _ _
  refine Fin.ext ?_
  -- the one operand axis is collapsed: the clamped start alone, with slice size 1
  show (vecGather N E wf).start j idx 0 + (vecGather N E wf).batchCoord j 0 + (vecGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hm0 : (0 : Fin 1) ∈ (vecGather N E wf).startIndexMap := List.mem_singleton.mpr rfl
  unfold GatherDims.start
  rw [dif_pos hm0]
  have hsi : (vecGather N E wf).siIdx j ⟨List.idxOf (0 : Fin 1) (vecGather N E wf).startIndexMap,
      List.idxOf_lt_length_iff.2 hm0⟩ = at0 (j 0) := by
    funext b; refine Fin.ext ?_
    match b with
    | ⟨0, _⟩ => rfl
    | ⟨1, _⟩ => rfl
  rw [hsi]
  rfl

end Cert.RowIndex

end
-- ==== Proof.SumScale.lean ====
/-
  Two facts about sums of extended reals that the neighbourhood aggregation needs.

  * A finite sum may be scaled term by term by a factor `w` that is a NONNEGATIVE REAL (`0 ≤ w`, `w ≠ ⊤`):
    `(∑ b j) * w = ∑ (b j * w)`, whatever the terms are (infinite ones included) — right distributivity on the
    extended reals holds for such a factor. With an empty sum both sides are `0` for every `w`, so the
    hypothesis on `w` is only asked for when the index set is inhabited.
  * The reciprocal square root of a positive natural number is a nonnegative real.
-/
import Idealize.ShloMosaic.PureOps.Ideal

noncomputable section

open scoped BigOperators

namespace Cert.SumScale

open Idealize.ShloMosaic

/-- Scaling a finite sum of extended reals by a nonnegative real, term by term. -/
theorem sum_mul_of_nonneg_of_ne_top {ι : Type} (F : Finset ι) (b : ι → EReal) {w : EReal} (h0 : 0 ≤ w) (ht : w ≠ ⊤) :
    (∑ j ∈ F, b j) * w = ∑ j ∈ F, b j * w := by
  classical
  induction F using Finset.induction_on with
  | empty => simp
  | insert a s ha ih =>
    rw [Finset.sum_insert ha, Finset.sum_insert ha, EReal.right_distrib_of_nonneg_of_ne_top h0 ht, ih]

/-- The aggregation law: summing `a j * u j` and scaling the sum by `w` afterwards is summing `a j * (u j * w)`,
    when `w` is a nonnegative real as soon as there is a term at all. (The leading `0 +` is the zero the
    accumulation starts from.) -/
theorem scaled_sum {ι : Type} (F : Finset ι) (a u : ι → EReal) (w : EReal) (hw : F.Nonempty → 0 ≤ w ∧ w ≠ ⊤) :
    (0 + ∑ j ∈ F, a j * u j) * w = 0 + ∑ j ∈ F, a j * (u j * w) := by
  rcases F.eq_empty_or_nonempty with rfl | hne
  · simp
  · obtain ⟨h0, ht⟩ := hw hne
    rw [zero_add, zero_add, sum_mul_of_nonneg_of_ne_top F _ h0 ht]
    exact Finset.sum_congr rfl fun j _ => mul_assoc _ _ _

/-- A sum of ones over a finite set is its cardinality, a real number. -/
theorem sum_one_eq_card {ι : Type} (F : Finset ι) : (∑ _j ∈ F, (1 : EReal)) = ((F.card : ℝ) : EReal) := by
  rw [Finset.sum_const, EReal.nsmul_eq_mul, mul_one]; rfl

/-- The reciprocal square root of a positive count is a nonnegative real. -/
theorem rsqrt_card_nonneg_real (n : ℕ) (hn : 1 ≤ n) :
    0 ≤ Ideal.rsqrt (((n : ℝ) : EReal)) ∧ Ideal.rsqrt (((n : ℝ) : EReal)) ≠ ⊤ := by
  have hpos : (0 : ℝ) < (n : ℝ) := by exact_mod_cast hn
  rw [Ideal.rsqrt_coe, if_neg (not_lt.mpr hpos.le), if_neg hpos.ne']
  refine ⟨?_, EReal.coe_ne_top _⟩
  exact_mod_cast inv_nonneg.mpr (Real.sqrt_nonneg _)

end Cert.SumScale

end
-- ==== Proof.Aggregate.lean ====
/-
  The neighbourhood aggregation, scaled before or after the sum.

  Every update row `e` (an edge, or a node's self loop) carries a source row and a destination row. With
  `deg n` the number of update rows whose destination is node `n` and `w n = 1 / √(deg n)`:
    * one program scales the features by `w` at the SOURCE, sums the rows that land on node `n`, and scales
      the sum by `w n`:            (∑ H[s e] * w (s e)) * w n
    * the other scales each row by both factors before summing:   ∑ H[s e] * (w (s e) * w (d e))
  where the sums run over the update rows `e` that land on `n`, and `d e` is the destination as the GATHER reads
  it (a negative index wrapped by the row count, then clamped) while the SCATTER reads the raw index and drops
  what falls outside.

  They agree on the extended reals: a row that lands on `n` has a raw index in range, hence nonnegative, so
  wrapping and clamping leave it at `n` and `w (d e) = w n`; and if any row lands on `n` at all then
  `deg n ≥ 1`, so `w n` is a nonnegative REAL, by which a sum of extended reals may be scaled term by term
  (`SumScale.scaled_sum`). If no row lands on `n` both sums are empty and both sides are `0`.
  No finiteness of the features is used.
-/
import proofs.«123784_j16509854285899_2_alg».proof.Proof.RowIndex
import proofs.«123784_j16509854285899_2_alg».proof.Proof.SumScale

noncomputable section

open scoped BigOperators

namespace Cert.Aggregate

open Idealize.ShloMosaic Idealize.ShloMosaic.ValueIdx Cert.RowIndex Cert.SumScale

variable {N E C : Nat}

/-- The row a gather reads for an index word: read signed, clamped into `[0, N - 1]`. -/
def clampRow (hN : 0 < N) (v : BitVec 32) : Fin N := ⟨min v.toInt.toNat (N - 1), by omega⟩

/-- A word whose signed value is the row `n` is read by the gather as `n`. -/
theorem clampRow_of_toInt (hN : 0 < N) (v : BitVec 32) (n : Fin N) (h : v.toInt = (n.val : Int)) : clampRow hN v = n := by
  apply Fin.ext
  show min v.toInt.toNat (N - 1) = n.val
  have := n.isLt
  rw [h, Int.toNat_natCast]; omega

/-- The number of update rows landing on each node, as the scatter of ones computes it. -/
def deg (wfS1 : ScatterDims.WF ⟨1, ![N]⟩ ⟨2, ![E, 1]⟩ ⟨1, ![E]⟩ [] [0] [0] 1)
    (zero1 : (⟨1, ![N]⟩ : Shape).Idx → EReal) (ones : (⟨1, ![E]⟩ : Shape).Idx → EReal) (idxD : IVec ⟨2, ![E, 1]⟩ 32) :
    (⟨1, ![N]⟩ : Shape).Idx → EReal :=
  Ideal.hostScatterAdd (vecScatter N E wfS1) zero1 idxD ones

theorem deg_def (wfS1 : ScatterDims.WF ⟨1, ![N]⟩ ⟨2, ![E, 1]⟩ ⟨1, ![E]⟩ [] [0] [0] 1)
    (zero1 : (⟨1, ![N]⟩ : Shape).Idx → EReal) (ones : (⟨1, ![E]⟩ : Shape).Idx → EReal) (idxD : IVec ⟨2, ![E, 1]⟩ 32) :
    deg wfS1 zero1 ones idxD = Ideal.hostScatterAdd (vecScatter N E wfS1) zero1 idxD ones := rfl

/-- If some update row's raw destination is node `n`, the count at `n` is a positive natural number, so its
    reciprocal square root is a nonnegative real. -/
theorem rsqrt_deg_nonneg_real (wfS1 : ScatterDims.WF ⟨1, ![N]⟩ ⟨2, ![E, 1]⟩ ⟨1, ![E]⟩ [] [0] [0] 1)
    (zero1 : (⟨1, ![N]⟩ : Shape).Idx → EReal) (hz1 : ∀ n, zero1 n = 0)
    (ones : (⟨1, ![E]⟩ : Shape).Idx → EReal) (hones : ∀ e, ones e = 1) (idxD : IVec ⟨2, ![E, 1]⟩ 32)
    (n : Fin N) (e : Fin E) (he : (idxD (at0 e)).toInt = (n.val : Int)) :
    0 ≤ Ideal.rsqrt (deg wfS1 zero1 ones idxD (ix1 n)) ∧ Ideal.rsqrt (deg wfS1 zero1 ones idxD (ix1 n)) ≠ ⊤ := by
  unfold deg Ideal.hostScatterAdd
  rw [hz1, zero_add, Finset.sum_congr rfl (fun j _ => hones j), sum_one_eq_card]
  refine rsqrt_card_nonneg_real _ (Finset.card_pos.mpr ⟨ix1 e, ?_⟩)
  rw [Finset.mem_filter]
  exact ⟨Finset.mem_univ _, (vecScatter_resultIdx_iff wfS1 idxD (ix1 e) (ix1 n)).mpr he⟩

/-- THE AGGREGATION LAW at one element `i = (n, c)` of the result. -/
theorem agg_eq (hN : 0 < N)
    (wfS2 : ScatterDims.WF ⟨2, ![N, C]⟩ ⟨2, ![E, 1]⟩ ⟨2, ![E, C]⟩ [1] [0] [0] 1)
    (wfG2 : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (H : (⟨2, ![N, C]⟩ : Shape).Idx → EReal) (w : (⟨1, ![N]⟩ : Shape).Idx → EReal)
    (idxD idxDn idxSn : IVec ⟨2, ![E, 1]⟩ 32)
    (hnorm : ∀ e : Fin E, 0 ≤ (idxD (at0 e)).toInt → idxDn (at0 e) = idxD (at0 e))
    (zero2 : (⟨2, ![N, C]⟩ : Shape).Idx → EReal) (hz2 : ∀ i, zero2 i = 0)
    (i : (⟨2, ![N, C]⟩ : Shape).Idx)
    (hw : ∀ e : Fin E, (idxD (at0 e)).toInt = ((i 0).val : Int) → 0 ≤ w (ix1 (i 0)) ∧ w (ix1 (i 0)) ≠ ⊤) :
    Ideal.hostScatterAdd (rowScatter N E C wfS2) zero2 idxD
        (Host.gather (rowGather N E C wfG2) (fun p => H p * w (ix1 (p 0))) idxSn) i * w (ix1 (i 0))
      = Ideal.hostScatterAdd (rowScatter N E C wfS2) zero2 idxD
        (fun j => Host.gather (rowGather N E C wfG2) H idxSn j *
          (Host.gather (vecGather N E wfG1) w idxSn (ix1 (j 0)) * Host.gather (vecGather N E wfG1) w idxDn (ix1 (j 0)))) i := by
  unfold Ideal.hostScatterAdd
  rw [hz2 i]
  have hL : ∀ j : (⟨2, ![E, C]⟩ : Shape).Idx,
      Host.gather (rowGather N E C wfG2) (fun p => H p * w (ix1 (p 0))) idxSn j
        = H (ix2 (clampRow hN (idxSn (at0 (j 0)))) (j 1)) * w (ix1 (clampRow hN (idxSn (at0 (j 0))))) := fun j =>
    rowGather_apply hN wfG2 _ idxSn j
  rw [Finset.sum_congr rfl (fun j _ => hL j)]
  refine (scaled_sum (Finset.univ.filter fun j => (rowScatter N E C wfS2).resultIdx? j idxD = some i)
    (fun j => H (ix2 (clampRow hN (idxSn (at0 (j 0)))) (j 1)))
    (fun j => w (ix1 (clampRow hN (idxSn (at0 (j 0)))))) (w (ix1 (i 0)))
    (fun ⟨j, hj⟩ => hw (j 0) (((rowScatter_resultIdx_iff wfS2 idxD j i).mp (Finset.mem_filter.mp hj).2).1))).trans ?_
  refine congrArg (0 + ·) (Finset.sum_congr rfl fun j hj => ?_)
  have hji := (rowScatter_resultIdx_iff wfS2 idxD j i).mp (Finset.mem_filter.mp hj).2
  have hd : clampRow hN (idxDn (at0 (j 0))) = i 0 := by
    rw [hnorm (j 0) (by rw [hji.1]; exact Int.natCast_nonneg _)]
    exact clampRow_of_toInt hN _ _ hji.1
  beta_reduce
  rw [rowGather_apply hN wfG2 H idxSn j, vecGather_apply hN wfG1 w idxSn (ix1 (j 0)),
    vecGather_apply hN wfG1 w idxDn (ix1 (j 0))]
  show _ = H (ix2 (clampRow hN (idxSn (at0 (j 0)))) (j 1)) *
    (w (ix1 (clampRow hN (idxSn (at0 (j 0))))) * w (ix1 (clampRow hN (idxDn (at0 (j 0))))))
  rw [hd]

end Cert.Aggregate

end
-- ==== Proof.AggBridge.lean ====
/-
  The two programs' aggregated features are equal, element by element.

  The kernel's host side scales by `w = 1/√deg` at the source row, sums, and scales the sum at the destination row
  (`HostSide.aggK`); the reference multiplies each update row by `w[source] · w[destination]` and sums
  (its stage `val_main_v41`). Both read the same update rows, the same degree count and the same transformed
  features, so this is `Aggregate.agg_eq` at N = 100000 nodes, E = 1300000 update rows, C = 64 columns, once
    * the destination index the reference's gather reads — the raw index, wrapped by N when negative — is the raw
      index itself for a row that lands in range (a nonnegative word is not below zero, so the select keeps it);
    * the zero the sums start from and the ones the degree counts are the extended reals 0 and 1;
    * a node on which some row lands has degree at least one (`Aggregate.rsqrt_deg_nonneg_real`).
-/
import proofs.«123784_j16509854285899_2_alg».proof.Proof.HostSide
import proofs.«123784_j16509854285899_2_alg».proof.Proof.Aggregate
import Idealize.ShloMosaic.PureOps.Ideal.Laws
import Idealize.ShloMosaic.PureOps.IdealRules

set_option maxRecDepth 8192

noncomputable section

namespace Cert.KernelIdeal.AggBridge

open Idealize.ShloMosaic Idealize.ShloMosaic.ValueIdx
open Cert.ReferenceIdeal Cert.ReferenceIdeal.Gen Cert.ReferenceIdeal.Read
open Cert.RowIndex Cert.Aggregate Cert.KernelIdeal.HostSide

/-- A word that is nonnegative as a signed integer is not below zero. -/
theorem cmpi_slt_zero_of_nonneg (v : BitVec 32) (h : 0 ≤ v.toInt) : IntOp.cmpi .slt v 0#32 = 0#1 := by
  show BitVec.ofBool (v.slt 0#32) = 0#1
  have hs : v.slt 0#32 = false := by
    simp only [BitVec.slt, BitVec.toInt_zero, decide_eq_false_iff_not, not_lt]; exact h
  rw [hs]; rfl

/-- For an update row whose raw destination is nonnegative, the wrapped destination is the raw one. -/
theorem wrapped_eq_raw (x1 : IVec S2x1200000 32) (e : Fin 1300000)
    (h : 0 ≤ (val_main_v40 (F := Ideal) x1 (at0 e)).toInt) :
    val_main_v26 (F := Ideal) x1 (at0 e) = val_main_v40 (F := Ideal) x1 (at0 e) := by
  rw [val_main_v40_apply] at h ⊢
  rw [val_main_v26_apply, val_main_v25_apply, val_main_v22_apply, val_main_v21_apply, val_main_c_2_apply]
  have hidx : idx_main_v26 (at0 e) = idx_main_v40 (at0 e) := rfl
  rw [hidx, cmpi_slt_zero_of_nonneg _ h]
  exact select_zero _ _

/-- The accumulators start from zero. -/
theorem zero2 (i : S100000x64.Idx) : val_main_v39 (F := Ideal) i = 0 := by
  rw [val_main_v39_apply, val_main_cst_6_apply]; exact Ideal.ofBits_zero_f32
theorem zero1 (n : S100000.Idx) : val_main_v10 (F := Ideal) n = 0 := by
  rw [val_main_v10_apply, val_main_cst_0_apply]; exact Ideal.ofBits_zero_f32
/-- The degree counts ones. -/
theorem ones (e : S1300000.Idx) : val_main_v9 (F := Ideal) e = 1 := by
  rw [val_main_v9_apply, val_main_cst_apply]; exact IdealRules.sign_bit.ideal_onePat .f32

/-- The programs' dimension-number records are the row / scalar scatter and gather records of `RowIndex`. -/
theorem sd2R_eq : Cert.ReferenceIdeal.scatter_S100000x64_S1300000x1_S1300000x64_1_0_0_1
    = rowScatter 100000 1300000 64 scatter_S100000x64_S1300000x1_S1300000x64_1_0_0_1_wf := rfl
theorem sd2K_eq : Cert.KernelIdeal.scatter_S100000x64_S1300000x1_S1300000x64_1_0_0_1
    = rowScatter 100000 1300000 64 scatter_S100000x64_S1300000x1_S1300000x64_1_0_0_1_wf := rfl
theorem sd1R_eq : Cert.ReferenceIdeal.scatter_S100000_S1300000x1_S1300000_n_0_0_1
    = vecScatter 100000 1300000 scatter_S100000_S1300000x1_S1300000_n_0_0_1_wf := rfl
theorem gd2R_eq : Cert.ReferenceIdeal.gather_S100000x64_S1300000x1_S1300000x64_1_0_n_n_0_1_164
    = rowGather 100000 1300000 64 gather_S100000x64_S1300000x1_S1300000x64_1_0_n_n_0_1_164_wf := rfl
theorem gd2K_eq : Cert.KernelIdeal.gather_S100000x64_S1300000x1_S1300000x64_1_0_n_n_0_1_164
    = rowGather 100000 1300000 64 gather_S100000x64_S1300000x1_S1300000x64_1_0_n_n_0_1_164_wf := rfl
theorem gd1R_eq : Cert.ReferenceIdeal.gather_S100000_S1300000x1_S1300000_n_0_n_n_0_1_1
    = vecGather 100000 1300000 gather_S100000_S1300000x1_S1300000_n_0_n_n_0_1_1_wf := rfl

/-- The wrapped source index is one array, whichever stage computed it. -/
theorem src_eq (x1 : IVec S2x1200000 32) : val_main_v19 (F := Ideal) x1 = val_main_v34 (F := Ideal) x1 := by
  unfold val_main_v19 val_main_v34 val_main_v18 val_main_v33 val_main_v15 val_main_v30 val_main_v17 val_main_v32
    val_main_v14 val_main_v29 val_main_v16 val_main_v31 val_main_c val_main_c_4 val_main_c_1 val_main_c_5
  rfl

/-- The host's accumulating scatter at the extended reals is the exact sum (the instance's field, by definition). -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- A product of arrays is the array of products. -/
theorem mulf_fun {s : Shape} (a b : FVec Ideal s .f32) : mulf a b = fun p => a p * b p := rfl

/-- The degree count, as the scatter of ones the reference states. -/
theorem v12_eq (x1 : IVec S2x1200000 32) :
    val_main_v12 (F := Ideal) x1
      = Ideal.hostScatterAdd (vecScatter 100000 1300000 scatter_S100000_S1300000x1_S1300000_n_0_0_1_wf)
          (val_main_v10 (F := Ideal)) (val_main_v11 (F := Ideal) x1) (val_main_v9 (F := Ideal)) := by
  have h : val_main_v12 (F := Ideal) x1
      = Host.scatterAdd (F := Ideal) (φ := .f32) Cert.ReferenceIdeal.scatter_S100000_S1300000x1_S1300000_n_0_0_1 (val_main_v10 (F := Ideal))
          (val_main_v11 (F := Ideal) x1) (val_main_v9 (F := Ideal)) := rfl
  rw [h, scatterAdd_ideal, sd1R_eq]

/-- The scaling factor at a node is the reciprocal square root of the node's degree count, and the raw destination
    index is one array, whichever stage broadcast it. -/
theorem dinv_eq (x1 : IVec S2x1200000 32) (n : S100000.Idx) :
    val_main_v13 (F := Ideal) x1 n
      = Ideal.rsqrt (deg scatter_S100000_S1300000x1_S1300000_n_0_0_1_wf (val_main_v10 (F := Ideal)) (val_main_v9 (F := Ideal))
          (val_main_v11 (F := Ideal) x1) n) := by
  rw [val_main_v13_apply, Ideal.hostUnary_rsqrt_def, v12_eq, deg_def]
theorem raw_eq (x1 : IVec S2x1200000 32) : val_main_v40 (F := Ideal) x1 = val_main_v11 (F := Ideal) x1 := by
  unfold val_main_v40 val_main_v11; rfl

/-- The reference's per-row products, with the broadcasts read: row `e`'s features at the source times the two
    factors gathered for row `e`. -/
theorem updates_eq (x0 : FVec Ideal S100000x64 .f32) (x1 : IVec S2x1200000 32) (x2 : FVec Ideal S64x64 .f32) :
    val_main_v38 (F := Ideal) x0 x1 x2 = fun j =>
      Host.gather (rowGather 100000 1300000 64 gather_S100000x64_S1300000x1_S1300000x64_1_0_n_n_0_1_164_wf)
          (val_main_v8 (F := Ideal) x0 x2) (val_main_v34 (F := Ideal) x1) j *
        (Host.gather (vecGather 100000 1300000 gather_S100000_S1300000x1_S1300000_n_0_n_n_0_1_1_wf)
            (val_main_v13 (F := Ideal) x1) (val_main_v34 (F := Ideal) x1) (ix1 (j 0)) *
          Host.gather (vecGather 100000 1300000 gather_S100000_S1300000x1_S1300000_n_0_n_n_0_1_1_wf)
            (val_main_v13 (F := Ideal) x1) (val_main_v26 (F := Ideal) x1) (ix1 (j 0))) := by
  funext j
  rw [val_main_v38_apply, val_main_v37_apply, val_main_v36_apply, val_main_v28_apply]
  have hidx : idx_main_v36 (idx_main_v37 j) = ix1 (j 0) := funext fun a => by
    match a with | ⟨0, _⟩ => rfl
  rw [hidx]
  unfold val_main_v35 val_main_v20 val_main_v27
  rw [gd2R_eq, gd1R_eq, src_eq]
  rfl

/-- THE TWO AGGREGATIONS AGREE at every element. -/
theorem aggK_eq (x0 : FVec Ideal S100000x64 .f32) (x1 : IVec S2x1200000 32) (x2 : FVec Ideal S64x64 .f32)
    (i : S100000x64.Idx) : aggK x0 x1 x2 i = val_main_v41 (F := Ideal) x0 x1 x2 i := by
  have hs : spread (val_main_v13 (F := Ideal) x1) = fun p => val_main_v13 (F := Ideal) x1 (ix1 (p 0)) :=
    funext (spread_apply _)
  have key := agg_eq (N := 100000) (E := 1300000) (C := 64) (by decide)
    scatter_S100000x64_S1300000x1_S1300000x64_1_0_0_1_wf gather_S100000x64_S1300000x1_S1300000x64_1_0_n_n_0_1_164_wf
    gather_S100000_S1300000x1_S1300000_n_0_n_n_0_1_1_wf
    (val_main_v8 (F := Ideal) x0 x2) (val_main_v13 (F := Ideal) x1) (val_main_v40 (F := Ideal) x1)
    (val_main_v26 (F := Ideal) x1) (val_main_v34 (F := Ideal) x1) (wrapped_eq_raw x1)
    (val_main_v39 (F := Ideal)) zero2 i
    (fun e he => by
      rw [dinv_eq]
      rw [raw_eq] at he
      exact rsqrt_deg_nonneg_real scatter_S100000_S1300000x1_S1300000_n_0_0_1_wf
        (val_main_v10 (F := Ideal)) zero1 (val_main_v9 (F := Ideal)) ones (val_main_v11 (F := Ideal) x1) (i 0) e he)
  have hK : aggK x0 x1 x2
      = mulf (F := Ideal) (φ := .f32) (Host.scatterAdd (F := Ideal) (φ := .f32) Cert.KernelIdeal.scatter_S100000x64_S1300000x1_S1300000x64_1_0_0_1 (val_main_v39 (F := Ideal)) (val_main_v40 (F := Ideal) x1)
          (Host.gather Cert.KernelIdeal.gather_S100000x64_S1300000x1_S1300000x64_1_0_n_n_0_1_164
            (mulf (val_main_v8 (F := Ideal) x0 x2) (spread (val_main_v13 (F := Ideal) x1))) (val_main_v34 (F := Ideal) x1)))
        (spread (val_main_v13 (F := Ideal) x1)) := rfl
  have hR : val_main_v41 (F := Ideal) x0 x1 x2
      = Host.scatterAdd (F := Ideal) (φ := .f32) Cert.ReferenceIdeal.scatter_S100000x64_S1300000x1_S1300000x64_1_0_0_1 (val_main_v39 (F := Ideal))
          (val_main_v40 (F := Ideal) x1) (val_main_v38 (F := Ideal) x0 x1 x2) := rfl
  rw [hK, hR, hs, updates_eq, scatterAdd_ideal, scatterAdd_ideal, sd2K_eq, sd2R_eq, gd2K_eq, mulf_fun, mulf_fun]
  exact key

end Cert.KernelIdeal.AggBridge

end
-- ==== Proof.RefHead.lean ====
/-
  The reference's result is the head applied, row by row, to ITS aggregated features.

  Reading the reference's stages one operation at a time: after the aggregation (`val_main_v41`) it adds the bias,
  rectifies, adds the input features (`h0`), multiplies by `w1ᵀ`, adds `b1`, rectifies (`h1`), the same with
  `w2ᵀ`, `b2` (`h2`), and contracts with `w3ᵀ` and adds `b3`. The transposes only say that a weight is read at
  (output, input); the broadcasts of the biases read the vector at the column.
-/
import proofs.«123784_j16509854285899_2_alg».proof.Proof.Gen.ReferenceIdeal.Read
import proofs.«123784_j16509854285899_2_alg».proof.Proof.Head
import Idealize.ShloMosaic.PureOps.Ideal.Laws

noncomputable section

open scoped BigOperators

namespace Cert.ReferenceIdeal.RefHead

open Idealize.ShloMosaic Idealize.ShloMosaic.ValueIdx
open Cert.ReferenceIdeal Cert.ReferenceIdeal.Gen Cert.ReferenceIdeal.Read Cert.Head

variable (x0 : FVec Ideal S100000x64 .f32) (x1 : IVec S2x1200000 32) (x2 : FVec Ideal S64x64 .f32)
  (x3 : FVec Ideal S64 .f32) (x4 : FVec Ideal S256x64 .f32) (x5 : FVec Ideal S256 .f32)
  (x6 : FVec Ideal S256x256 .f32) (x7 : FVec Ideal S256 .f32) (x8 : FVec Ideal S1x256 .f32) (x9 : FVec Ideal S1 .f32)

/-- The rectifiers compare with the extended real zero. -/
theorem zero_word : (FloatOps.ofBits .f32 0x00000000#32 : Ideal .f32) = 0 := Ideal.ofBits_zero_f32

/-- Bias, rectifier and residual at node `r`, column `k`. -/
theorem stage0 (r : Fin 100000) (k : Fin 64) :
    val_main_v46 (F := Ideal) x0 x1 x2 x3 (ix2 r k)
      = h0 (fun k => val_main_v41 (F := Ideal) x0 x1 x2 (ix2 r k)) (fun k => x0 (ix2 r k)) (fun k => x3 (ix1 k)) k := by
  rw [val_main_v46_apply, val_main_v45_apply, val_main_v44_apply, val_main_v43_apply, val_main_v42_apply,
    val_main_call0_v0_apply, val_main_call0_cst_apply, zero_word]
  have e : idx_main_v42 (idx_main_v43 (ix2 r k)) = ix1 k := funext fun a => Fin.ext (by
    match a with | ⟨0, _⟩ => rfl)
  rw [e]
  rfl

/-- The first dense layer at node `r`, output `j`. -/
theorem stage1 (r : Fin 100000) (j : Fin 256) :
    val_main_v52 (F := Ideal) x0 x1 x2 x3 x4 x5 (ix2 r j)
      = h1 (fun k => val_main_v41 (F := Ideal) x0 x1 x2 (ix2 r k)) (fun k => x0 (ix2 r k)) (fun k => x3 (ix1 k))
          (fun k j => x4 (ix2 j k)) (fun j => x5 (ix1 j)) j := by
  rw [val_main_v52_apply, val_main_v51_apply, val_main_v48_apply, val_main_v50_apply, val_main_v49_apply,
    val_main_call1_v0_apply, val_main_call1_cst_apply, zero_word]
  have eb : idx_main_v49 (idx_main_v50 (ix2 r j)) = ix1 j := funext fun a => Fin.ext (by
    match a with | ⟨0, _⟩ => rfl)
  rw [eb]
  have es : ∀ k : Fin 64, val_main_v46 (F := Ideal) x0 x1 x2 x3 (lidx_main_v48 (ix2 r j) k) * val_main_v47 (F := Ideal) x4 (ridx_main_v48 (ix2 r j) k)
      = h0 (fun k => val_main_v41 (F := Ideal) x0 x1 x2 (ix2 r k)) (fun k => x0 (ix2 r k)) (fun k => x3 (ix1 k)) k * x4 (ix2 j k) := fun k => by
    have el : lidx_main_v48 (ix2 r j) k = ix2 r k := funext fun a => Fin.ext (by
      match a with | ⟨0, _⟩ => rfl | ⟨1, _⟩ => rfl)
    have er : idx_main_v47 (ridx_main_v48 (ix2 r j) k) = ix2 j k := funext fun a => Fin.ext (by
      match a with | ⟨0, _⟩ => rfl | ⟨1, _⟩ => rfl)
    rw [el, stage0, val_main_v47_apply, er]
  rw [Finset.sum_congr rfl (fun k _ => es k)]
  rfl

/-- The second dense layer at node `r`, output `j`. -/
theorem stage2 (r : Fin 100000) (j : Fin 256) :
    val_main_v58 (F := Ideal) x0 x1 x2 x3 x4 x5 x6 x7 (ix2 r j)
      = h2 (fun k => val_main_v41 (F := Ideal) x0 x1 x2 (ix2 r k)) (fun k => x0 (ix2 r k)) (fun k => x3 (ix1 k))
          (fun k j => x4 (ix2 j k)) (fun j => x5 (ix1 j)) (fun k j => x6 (ix2 j k)) (fun j => x7 (ix1 j)) j := by
  rw [val_main_v58_apply, val_main_v57_apply, val_main_v54_apply, val_main_v56_apply, val_main_v55_apply,
    val_main_call2_v0_apply, val_main_call2_cst_apply, zero_word]
  have eb : idx_main_v55 (idx_main_v56 (ix2 r j)) = ix1 j := funext fun a => Fin.ext (by
    match a with | ⟨0, _⟩ => rfl)
  rw [eb]
  have es : ∀ k : Fin 256, val_main_v52 (F := Ideal) x0 x1 x2 x3 x4 x5 (lidx_main_v54 (ix2 r j) k) * val_main_v53 (F := Ideal) x6 (ridx_main_v54 (ix2 r j) k)
      = h1 (fun k => val_main_v41 (F := Ideal) x0 x1 x2 (ix2 r k)) (fun k => x0 (ix2 r k)) (fun k => x3 (ix1 k))
          (fun k j => x4 (ix2 j k)) (fun j => x5 (ix1 j)) k * x6 (ix2 j k) := fun k => by
    have el : lidx_main_v54 (ix2 r j) k = ix2 r k := funext fun a => Fin.ext (by
      match a with | ⟨0, _⟩ => rfl | ⟨1, _⟩ => rfl)
    have er : idx_main_v53 (ridx_main_v54 (ix2 r j) k) = ix2 j k := funext fun a => Fin.ext (by
      match a with | ⟨0, _⟩ => rfl | ⟨1, _⟩ => rfl)
    rw [el, stage1, val_main_v53_apply, er]
  rw [Finset.sum_congr rfl (fun k _ => es k)]
  rfl

/-- THE REFERENCE'S RESULT is the head of its aggregated features. -/
theorem result_eq :
    val_main_v63 (F := Ideal) x0 x1 x2 x3 x4 x5 x6 x7 x8 x9
      = headOut (val_main_v41 (F := Ideal) x0 x1 x2) x0 x3 x4 x5 x6 x7 x8 x9 := by
  funext i
  obtain ⟨r, q, rfl⟩ : ∃ (r : Fin 100000) (q : Fin 1), i = ix2 r q := ⟨i 0, i 1, eq_ix2 i⟩
  rw [val_main_v63_apply, val_main_v60_apply, val_main_v62_apply, val_main_v61_apply]
  have eb : idx_main_v61 (idx_main_v62 (ix2 r q)) = ix1 (0 : Fin 1) := funext fun a => Fin.ext (by
    match a with | ⟨0, _⟩ => rfl)
  rw [eb]
  have es : ∀ k : Fin 256, val_main_v58 (F := Ideal) x0 x1 x2 x3 x4 x5 x6 x7 (lidx_main_v60 (ix2 r q) k) * val_main_v59 (F := Ideal) x8 (ridx_main_v60 (ix2 r q) k)
      = h2 (fun k => val_main_v41 (F := Ideal) x0 x1 x2 (ix2 r k)) (fun k => x0 (ix2 r k)) (fun k => x3 (ix1 k))
          (fun k j => x4 (ix2 j k)) (fun j => x5 (ix1 j)) (fun k j => x6 (ix2 j k)) (fun j => x7 (ix1 j)) k * x8 (ix2 (0 : Fin 1) k) := fun k => by
    have el : lidx_main_v60 (ix2 r q) k = ix2 r k := funext fun a => Fin.ext (by
      match a with | ⟨0, _⟩ => rfl | ⟨1, _⟩ => rfl)
    have er : idx_main_v59 (ridx_main_v60 (ix2 r q) k) = ix2 (0 : Fin 1) k := funext fun a => Fin.ext (by
      match a with
      | ⟨0, _⟩ => show (q : Nat) = 0; omega
      | ⟨1, _⟩ => rfl)
    rw [el, stage2, val_main_v59_apply, er]
  rw [Finset.sum_congr rfl (fun k _ => es k)]
  rfl

end Cert.ReferenceIdeal.RefHead

end
-- ==== Proof.lean ====
/-
  A graph convolution followed by a three-layer dense head, computed two ways, agree on the extended reals.

  Both programs take node features `x : [100000, 64]`, an edge list, the convolution's weight and bias and the head's
  parameters. Both form the update rows (the edges followed by one self loop per node), count each node's degree
  `deg`, transform the features (`x · Wᵀ`) and aggregate them over the update rows with the symmetric normalisation
  `w[source] · w[destination]`, `w = 1/√deg`; then, per node: bias, rectifier, residual, two rectified dense
  layers and a final contraction to one number.

    * The reference multiplies every gathered row by `w[source] · w[destination]` and sums at the destination.
      The kernel's host side scales by `w` at the source, sums, and scales the sum by `w` at the destination.
      On the extended reals these agree because a destination on which any row lands has degree at least one, so its
      factor is a nonnegative real, by which a sum may be scaled term by term (`Aggregate`, `AggBridge`).
    * The dense head runs in one gridded kernel over blocks of 4000 nodes, with the weights transposed on the host
      and the biases as one-row matrices; its two matrix products and its lane sum are, at the ideal instance, the
      same sums the reference's contractions are, and a change of float format is the identity (`BlockRow`,
      `WinRead`, `KernelFinal`); the reference's stages read one operation at a time give the same per-node
      function (`RefHead`). `Head.headOut` is that common function.

  The three frames are the generated ones (the reference's is its generated run with the result dropped); the
  idealization rewrote nothing, so `preserves` is trivial.
-/
import proofs.«123784_j16509854285899_2_alg».proof.Defs
import proofs.«123784_j16509854285899_2_alg».proof.Proof.Gen.Kernel
import proofs.«123784_j16509854285899_2_alg».proof.Proof.Gen.Kernel.Skeleton
import proofs.«123784_j16509854285899_2_alg».proof.Proof.Gen.Kernel.Launch
import proofs.«123784_j16509854285899_2_alg».proof.Proof.Gen.Kernel.Points
import proofs.«123784_j16509854285899_2_alg».proof.Proof.Gen.Kernel.Frame
import proofs.«123784_j16509854285899_2_alg».proof.Proof.Gen.KernelIdeal
import proofs.«123784_j16509854285899_2_alg».proof.Proof.Gen.KernelIdeal.Skeleton
import proofs.«123784_j16509854285899_2_alg».proof.Proof.Gen.KernelIdeal.Launch
import proofs.«123784_j16509854285899_2_alg».proof.Proof.Gen.KernelIdeal.Points
import proofs.«123784_j16509854285899_2_alg».proof.Proof.Gen.KernelIdeal.Frame
import proofs.«123784_j16509854285899_2_alg».proof.Proof.Gen.ReferenceIdeal
import proofs.«123784_j16509854285899_2_alg».proof.Proof.Gen.Pre_finite_inputs
import proofs.«123784_j16509854285899_2_alg».proof.Proof.KernelValueP
import proofs.«123784_j16509854285899_2_alg».proof.Proof.Gen.ReferenceIdeal.Run
import proofs.«123784_j16509854285899_2_alg».proof.Proof.Gen.ReferenceIdeal.Read
import proofs.«123784_j16509854285899_2_alg».proof.Proof.KernelFinal
import proofs.«123784_j16509854285899_2_alg».proof.Proof.AggBridge
import proofs.«123784_j16509854285899_2_alg».proof.Proof.RefHead
import Idealize.ShloMosaic.Adequacy
import Idealize.ShloMosaic.Init

noncomputable section

namespace Cert.Proof

open Idealize.ShloMosaic Idealize.SL.Sem Idealize.ShloMosaic.TcCoe

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's aggregated features are the kernel's host side's, as arrays. -/
theorem agg_fun (x0 : FVec Ideal Cert.ReferenceIdeal.S100000x64 .f32) (x1 : IVec Cert.ReferenceIdeal.S2x1200000 32)
    (x2 : FVec Ideal Cert.ReferenceIdeal.S64x64 .f32) :
    Cert.ReferenceIdeal.Read.val_main_v41 (F := Ideal) x0 x1 x2 = Cert.KernelIdeal.HostSide.aggK x0 x1 x2 :=
  funext fun i => (Cert.KernelIdeal.AggBridge.aggK_eq x0 x1 x2 i).symm

/-- From memories agreeing on the arguments, the kernel's result array (`KernelFinal.GK`: the head of its host
    side's aggregation) and the reference's result (the head of its own aggregation, `RefHead.result_eq`) are one
    array, since the two aggregations agree (`agg_fun`). -/
theorem algebraic : Cert.algebraic_KernelIdeal_ReferenceIdeal := by
  intro m ρ m' ρ' _ hagree
  refine ⟨fun c => Cert.KernelIdeal.Final.GK m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v63_eq, Cert.ReferenceIdeal.RefHead.result_eq, h0, h1, h2, h3, h4, h5, h6, h7, h8, h9,
    agg_fun]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
